-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x3x512x512 : Shape := ⟨4, ![32, 3, 512, 512]⟩
abbrev S_ : Shape := ⟨0, ![]⟩

class Facts : Prop where
  bcast_S_S32x3x512x512 : S_.BroadcastsInDim S32x3x512x512 (![] : Fin 0 → Fin S32x3x512x512.rank)
  reducesTo_S32x3x512x512_S_d0_1_2_3 : S32x3x512x512.ReducesTo [0, 1, 2, 3] S_
  h_S_ : 0 < S_.numel

variable [Facts]

def fn {F : FTy → Type} [FloatOps F] (main_arg0 : FVec F S32x3x512x512 .f32) (main_arg1 : FVec F S32x3x512x512 .f32) (main_arg2 : IVec S32x3x512x512 32) : IVec S_ 1 :=
  let main_v0 : FVec F S32x3x512x512 .f32 := Host.absf main_arg0
  let main_cst : FVec F S_ .f32 := constant S_ .f32 0x7F800000#32
  let main_v1 : FVec F S32x3x512x512 .f32 := broadcastInDim S32x3x512x512 ![] bcast_S_S32x3x512x512 main_cst
  let main_v2 : IVec S32x3x512x512 1 := cmpf .olt main_v0 main_v1
  let main_c : IVec S_ 1 := constantI S_ 1 1#1
  let main_v3 : IVec S_ 1 := (fun x v => Host.reduce IntOp.andi x v reducesTo_S32x3x512x512_S_d0_1_2_3 h_S_) main_v2 main_c
  let main_v4 : FVec F S32x3x512x512 .f32 := Host.absf main_arg1
  let main_cst_0 : FVec F S_ .f32 := constant S_ .f32 0x7F800000#32
  let main_v5 : FVec F S32x3x512x512 .f32 := broadcastInDim S32x3x512x512 ![] bcast_S_S32x3x512x512 main_cst_0
  let main_v6 : IVec S32x3x512x512 1 := cmpf .olt main_v4 main_v5
  let main_c_1 : IVec S_ 1 := constantI S_ 1 1#1
  let main_v7 : IVec S_ 1 := (fun x v => Host.reduce IntOp.andi x v reducesTo_S32x3x512x512_S_d0_1_2_3 h_S_) main_v6 main_c_1
  let main_v8 : IVec S_ 1 := andi main_v3 main_v7
  main_v8
-- ==== Kernel.lean ====
abbrev S32x3x512x512 : Shape := ⟨4, ![32, 3, 512, 512]⟩
abbrev S49152x512 : Shape := ⟨2, ![49152, 512]⟩
abbrev S1x1 : Shape := ⟨2, ![1, 1]⟩
abbrev S2048x512 : Shape := ⟨2, ![2048, 512]⟩
abbrev S1x2048x512 : Shape := ⟨3, ![1, 2048, 512]⟩
abbrev S1 : Shape := ⟨1, ![1]⟩
abbrev S1x1x1 : Shape := ⟨3, ![1, 1, 1]⟩
abbrev S_ : Shape := ⟨0, ![]⟩

abbrev nBuf : Space → Nat
  | .hbm => 11
  | .vmem => 8
  | .smem => 0
  | _ => 0

abbrev bufTy : (tb : Table) → Fin (tcTables nBuf tb) → BufTy
  | .hbm, ⟨0, _⟩ => ⟨S32x3x512x512, .f32⟩
  | .hbm, ⟨1, _⟩ => ⟨S32x3x512x512, .f32⟩
  | .hbm, ⟨2, _⟩ => ⟨S32x3x512x512, .i32⟩
  | .hbm, ⟨3, _⟩ => ⟨S49152x512, .f32⟩
  | .hbm, ⟨4, _⟩ => ⟨S49152x512, .f32⟩
  | .hbm, ⟨5, _⟩ => ⟨S49152x512, .i32⟩
  | .hbm, ⟨6, _⟩ => ⟨S1x1, .f32⟩
  | .hbm, ⟨7, _⟩ => ⟨S1x1, .f32⟩
  | .hbm, ⟨8, _⟩ => ⟨S_, .f32⟩
  | .hbm, ⟨9, _⟩ => ⟨S_, .f32⟩
  | .hbm, ⟨10, _⟩ => ⟨S_, .f32⟩
  | .local _ .vmem, ⟨0, _⟩ => ⟨S2048x512, .f32⟩
  | .local _ .vmem, ⟨1, _⟩ => ⟨S2048x512, .f32⟩
  | .local _ .vmem, ⟨2, _⟩ => ⟨S2048x512, .f32⟩
  | .local _ .vmem, ⟨3, _⟩ => ⟨S2048x512, .f32⟩
  | .local _ .vmem, ⟨4, _⟩ => ⟨S2048x512, .i32⟩
  | .local _ .vmem, ⟨5, _⟩ => ⟨S2048x512, .i32⟩
  | .local _ .vmem, ⟨6, _⟩ => ⟨S1x1, .f32⟩
  | .local _ .vmem, ⟨7, _⟩ => ⟨S1x1, .f32⟩
  | _, _ => ⟨S32x3x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7

abbrev nD : Nat := 1
abbrev τ : Topo := Topo.v7x

variable {F : FTy → Type} [FloatOps F]

abbrev grid0 : Pipeline.Grid := ⟨1, ![24], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x512 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

class Facts₀ : Prop where
  shapeCasts_S32x3x512x512_S49152x512 : S32x3x512x512.ShapeCasts S49152x512
  inb_S1x1_S1x1_0_0 : ∀ a, (![0, 0] : Fin 2 → Nat) a + S1x1.size a ≤ S1x1.size a
  h_S1x1 : 0 < S1x1.numel
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  natLt_1_32 : 1 < 32
  shapeCasts_S2048x512_S1x2048x512 : S2048x512.ShapeCasts S1x2048x512
  reduces_S1x2048x512_S1 : S1x2048x512.Reduces [1, 2] S1
  shapeCasts_S1_S1x1x1 : S1.ShapeCasts S1x1x1
  inpos_S1x1x1_p0_0_0 : ∀ a, (![0, 0, 0] : Fin 3 → Nat) a < S1x1x1.size a
  shapeCasts_S1x1_S1x1 : S1x1.ShapeCasts S1x1
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S49152x512.size a
  hwx0_0 : ∀ i : grid0.Coords, EltTy.bits .f32 = 32 ∨ (Rect.block (s := S49152x512) S2048x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x512.size a ≤ S49152x512.size a
  hwx0_1 : ∀ i : grid0.Coords, EltTy.bits .f32 = 32 ∨ (Rect.block (s := S49152x512) S2048x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x512.size a ≤ S49152x512.size a
  hwx0_2 : ∀ i : grid0.Coords, EltTy.bits .i32 = 32 ∨ (Rect.block (s := S49152x512) S2048x512.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)

variable [Facts₀]

abbrev win0_0 : Pipeline.Window sig grid0 :=
  Pipeline.Window.ofSpec (Memref.whole main_v0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2048x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S2048x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3_0) S1x1.size cc0_transform_3 reads0_3 true true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3_1) S1x1.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S32x3x512x512 : Shape := ⟨4, ![32, 3, 512, 512]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S32x3x512x512, .f32⟩
  | .hbm, ⟨1, _⟩ => ⟨S32x3x512x512, .f32⟩
  | .hbm, ⟨2, _⟩ => ⟨S32x3x512x512, .i32⟩
  | .hbm, ⟨3, _⟩ => ⟨S32x3x512x512, .f32⟩
  | .hbm, ⟨4, _⟩ => ⟨S32x3x512x512, .f32⟩
  | .hbm, ⟨5, _⟩ => ⟨S_, .i32⟩
  | .hbm, ⟨6, _⟩ => ⟨S32x3x512x512, .i32⟩
  | .hbm, ⟨7, _⟩ => ⟨S32x3x512x512, .i1⟩
  | .hbm, ⟨8, _⟩ => ⟨S32x3x512x512, .f32⟩
  | .hbm, ⟨9, _⟩ => ⟨S32x3x512x512, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | _, _ => ⟨S32x3x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩

abbrev nD : Nat := 1
abbrev τ : Topo := Topo.v7x

variable {F : FTy → Type} [FloatOps F]

class Facts₀ : Prop where
  bcast_S_S32x3x512x512 : S_.BroadcastsInDim S32x3x512x512 (![] : Fin 0 → Fin S32x3x512x512.rank)
  reducesTo_S32x3x512x512_S_d0_1_2_3 : S32x3x512x512.ReducesTo [0, 1, 2, 3] S_
  h_S_ : 0 < S_.numel

variable [Facts₀]

class Facts : Prop extends Facts₀ where

variable [Facts]
-- ==== Proof.Pieces.lean ====
/-
  What one run of the kernel body leaves in its two one-element accumulators.

  The body subtracts the target block from the input block, squares the difference, multiplies by the 0/1 indicator of
  "mask = 1", sums the 2048 × 512 products into one number and adds it to the running total; it sums the indicator
  itself into the running count. At the first grid point both accumulators are first reset to zero. Every store of the
  body writes the accumulator's single element, so what a buffer holds afterwards is the value of its last store, and
  the values that store was computed from are the whole input blocks and the accumulator as the body found it (or the
  zero just stored, at the first point). Stated for every reading of the float operations.
-/
import proofs.«163819_j3710851744149_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

/-- The offset of every access of the body: the origin of its buffer. -/
theorem origin : (![0, 0] : Fin 2 → Nat) = fun _ => 0 := funext fun a => by fin_cases a <;> rfl

/-- At a point after the first the running total's buffer, holding `acc`, ends at `acc` plus the block's masked
    squared error: the one store to it covers it, and the loads it is computed from read whole buffers. -/
theorem later_total (c : Dev nD) (i : grid0.Coords) (a1 : Memref sig .tc .vmem S2048x512 .f32) (h1 : a1.IsWhole)
    (a2 : Memref sig .tc .vmem S2048x512 .f32) (h2 : a2.IsWhole) (a3 : Memref sig .tc .vmem S2048x512 .i32) (h3 : a3.IsWhole)
    (a4 : Memref sig .tc .vmem S1x1 .f32) (h4 : a4.IsWhole) (a5 : Memref sig .tc .vmem S1x1 .f32) (h5 : a5.IsWhole)
    (hc : ¬cond0_0 i) (x0 x1 : Vec F S2048x512 .f32) (x2 : Vec F S2048x512 .i32) (acc cnt : Vec F S1x1 .f32) :
    out0_B_3 c i a1 h1 a2 h2 a3 h3 a4 h4 a5 h5 hc x0 x1 x2 acc cnt = k0_pay4 x0 x1 x2 acc := by
  unfold out0_B_3
  rw [View.read_writes_eq_canon _ _ _ (cover0_B_3 c i a1 h1 a2 h2 a3 h3 a4 h4 a5 h5 hc x0 x1 x2 acc cnt)]
  unfold kernelRun0_B
  dsimp only
  rw [View.canon_unit_zero origin]
  simp only [View.readAt_eq_ld, h1.read_unread, h2.read_unread, h3.read_unread, h4.read_unread,
    View.ld_unit_zero (S := S2048x512) origin, View.ld_unit_zero (S := S1x1) origin]

/-- At a point after the first the running count's buffer, holding `cnt`, ends at `cnt` plus the number of selected
    entries of the block. -/
theorem later_count (c : Dev nD) (i : grid0.Coords) (a1 : Memref sig .tc .vmem S2048x512 .f32) (h1 : a1.IsWhole)
    (a2 : Memref sig .tc .vmem S2048x512 .f32) (h2 : a2.IsWhole) (a3 : Memref sig .tc .vmem S2048x512 .i32) (h3 : a3.IsWhole)
    (a4 : Memref sig .tc .vmem S1x1 .f32) (h4 : a4.IsWhole) (a5 : Memref sig .tc .vmem S1x1 .f32) (h5 : a5.IsWhole)
    (hc : ¬cond0_0 i) (x0 x1 : Vec F S2048x512 .f32) (x2 : Vec F S2048x512 .i32) (acc cnt : Vec F S1x1 .f32) :
    out0_B_4 c i a1 h1 a2 h2 a3 h3 a4 h4 a5 h5 hc x0 x1 x2 acc cnt = k0_pay5 x2 cnt := by
  unfold out0_B_4
  rw [View.read_writes_eq_canon _ _ _ (cover0_B_4 c i a1 h1 a2 h2 a3 h3 a4 h4 a5 h5 hc x0 x1 x2 acc cnt)]
  unfold kernelRun0_B
  dsimp only
  rw [View.canon_unit_zero origin]
  simp only [View.readAt_eq_ld, h3.read_unread, h5.read_unread,
    View.ld_unit_zero (S := S2048x512) origin, View.ld_unit_zero (S := S1x1) origin]

/-- At the first point the body stores the zero block in the total's buffer, reads it back, and leaves zero plus the
    block's masked squared error: the later store covers the earlier, and the read-back sees the zero block. -/
theorem first_total (c : Dev nD) (i : grid0.Coords) (a1 : Memref sig .tc .vmem S2048x512 .f32) (h1 : a1.IsWhole)
    (a2 : Memref sig .tc .vmem S2048x512 .f32) (h2 : a2.IsWhole) (a3 : Memref sig .tc .vmem S2048x512 .i32) (h3 : a3.IsWhole)
    (a4 : Memref sig .tc .vmem S1x1 .f32) (h4 : a4.IsWhole) (a5 : Memref sig .tc .vmem S1x1 .f32) (h5 : a5.IsWhole)
    (hc : cond0_0 i) (x0 x1 : Vec F S2048x512 .f32) (x2 : Vec F S2048x512 .i32) :
    out0_A_3 c i a1 h1 a2 h2 a3 h3 a4 h4 a5 h5 hc x0 x1 x2 = k0_pay4 x0 x1 x2 k0_pay1 := by
  unfold out0_A_3
  rw [View.read_writes_eq_canon _ _ _ (cover0_A_3 c i a1 h1 a2 h2 a3 h3 a4 h4 a5 h5 hc x0 x1 x2)]
  unfold kernelRun0_A
  dsimp only
  sl_unfold_words
  rw [View.canon_cons_unit_zero (S := S1x1) origin, View.readCov_unit_zero (S := S1x1) _ origin]
  simp only [View.readAt_eq_ld, h1.read_unread, h2.read_unread, h3.read_unread,
    View.ld_unit_zero (S := S2048x512) origin, View.ld_unit_zero (S := S1x1) origin]

/-- At the first point the count's buffer likewise ends at zero plus the number of selected entries of the block. -/
theorem first_count (c : Dev nD) (i : grid0.Coords) (a1 : Memref sig .tc .vmem S2048x512 .f32) (h1 : a1.IsWhole)
    (a2 : Memref sig .tc .vmem S2048x512 .f32) (h2 : a2.IsWhole) (a3 : Memref sig .tc .vmem S2048x512 .i32) (h3 : a3.IsWhole)
    (a4 : Memref sig .tc .vmem S1x1 .f32) (h4 : a4.IsWhole) (a5 : Memref sig .tc .vmem S1x1 .f32) (h5 : a5.IsWhole)
    (hc : cond0_0 i) (x0 x1 : Vec F S2048x512 .f32) (x2 : Vec F S2048x512 .i32) :
    out0_A_4 c i a1 h1 a2 h2 a3 h3 a4 h4 a5 h5 hc x0 x1 x2 = k0_pay5 x2 k0_pay2 := by
  unfold out0_A_4
  rw [View.read_writes_eq_canon _ _ _ (cover0_A_4 c i a1 h1 a2 h2 a3 h3 a4 h4 a5 h5 hc x0 x1 x2)]
  unfold kernelRun0_A
  dsimp only
  sl_unfold_words
  rw [View.canon_cons_unit_zero (S := S1x1) origin, View.readCov_unit_zero (S := S1x1) _ origin]
  simp only [View.readAt_eq_ld, h3.read_unread,
    View.ld_unit_zero (S := S2048x512) origin, View.ld_unit_zero (S := S1x1) origin]

end Cert.KernelIdeal.Pieces

end
-- ==== Proof.MaskedSum.lean ====
/-
  The masked squared error, term by term, and the two re-arrangements of its sum.

  One term is `(a − b)² · w`, with `w` the 0/1 indicator of "mask word = 1". The whole quantity is the sum of the terms
  over all 32·3·512·512 positions (and the count is the sum of the indicators). Two arrangements of that sum meet here:
  the positions listed as a 49152 × 512 matrix (the same elements in row-major order), and that matrix cut into 24
  bands of 2048 rows. Both are re-indexings of one finite sum, so only commutativity and associativity of addition are
  used: the laws hold in any commutative additive monoid, the extended reals with their two infinities included.
-/
import Idealize.ShloMosaic.PureOps.Ideal
import Idealize.ShloMosaic.Lib.ValueIdx
import Mathlib.Algebra.BigOperators.Fin
import Mathlib.Logic.Equiv.Fin.Basic

noncomputable section

open scoped BigOperators

namespace Cert.MaskedSum

open Idealize.ShloMosaic Idealize.ShloMosaic.ValueIdx

/-! ## One term -/

/-- The indicator of "the mask word is 1", as an extended real: the one-bit answer of the comparison read as a number. -/
def weight (k : BitVec 32) : EReal := (((IntOp.cmpi .eq k 1#32).toNat : ℝ) : EReal)

/-- One term of the masked squared error. -/
def term (a b : EReal) (k : BitVec 32) : EReal := (a - b) * (a - b) * weight k

/-- Widening the one-bit answer to 32 bits and reading it as a signed integer gives the same number as reading the bit
    itself as an unsigned one: it is 0 or 1 either way. -/
theorem toInt_setWidth_bit : ∀ b : BitVec 1, (b.setWidth 32).toInt = (b.toNat : ℤ) := by decide

/-- So the indicator as the kernel computes it (compare, widen, convert signed) is `weight`. -/
theorem sitofp_extui_cmpi (k : BitVec 32) :
    FloatOps.sitofp (F := Ideal) .f32 ((IntOp.cmpi .eq k 1#32).setWidth 32) = weight k := by
  show (((((IntOp.cmpi .eq k 1#32).setWidth 32).toInt : ℤ) : ℝ) : EReal) = _
  rw [toInt_setWidth_bit]
  rfl

/-- And as the reference computes it (compare, convert unsigned) it is `weight` by definition. -/
theorem uitofp_cmpi (k : BitVec 32) : FloatOps.uitofp (F := Ideal) .f32 (IntOp.cmpi .eq k 1#32) = weight k := rfl

/-- The masked mean squared error of three arrays of one shape, as the scalar array both programs return: the sum of the
    terms divided by the sum of the indicators (the extended reals' division, whatever it gives when nothing is selected). -/
def result {s : Shape} (a b : s.Idx → EReal) (k : s.Idx → BitVec 32) : (⟨0, ![]⟩ : Shape).Idx → EReal :=
  fun _ => Ideal.div (∑ i, term (a i) (b i) (k i)) (∑ i, weight (k i))

/-! ## A matrix of 24 · 2048 rows, band by band -/

/-- Row `p` of band `t` is row `2048·t + p` of the matrix. -/
def bandRow (t : Fin 24) (p : Fin 2048) : Fin 49152 := ⟨2048 * t.val + p.val, by have := t.isLt; have := p.isLt; omega⟩

/-- Position `y` of band `t`, as a position of the matrix. -/
def bandIdx (t : Fin 24) (y : (⟨2, ![2048, 512]⟩ : Shape).Idx) : (⟨2, ![49152, 512]⟩ : Shape).Idx :=
  ix2 (bandRow t (y 0)) (y 1)

/-- The rows of the matrix are the rows of its 24 bands: `(t, p) ↦ 2048·t + p` is a bijection. -/
def bandEquiv : Fin 24 × Fin 2048 ≃ Fin 49152 where
  toFun q := bandRow q.1 q.2
  invFun r := (⟨r.val / 2048, by have := r.isLt; omega⟩, ⟨r.val % 2048, Nat.mod_lt _ (by decide)⟩)
  left_inv q := by
    obtain ⟨t, p⟩ := q
    have ht := t.isLt
    have hp := p.isLt
    refine Prod.ext (Fin.ext ?_) (Fin.ext ?_)
    · show (2048 * t.val + p.val) / 2048 = t.val
      omega
    · show (2048 * t.val + p.val) % 2048 = p.val
      omega
  right_inv r := Fin.ext (by show 2048 * (r.val / 2048) + r.val % 2048 = r.val; omega)

/-- A sum over the matrix is the sum over the bands of the sums over each band. -/
theorem sum_bands {M : Type*} [AddCommMonoid M] (f : (⟨2, ![49152, 512]⟩ : Shape).Idx → M) :
    ∑ j, f j = ∑ t : Fin 24, ∑ y : (⟨2, ![2048, 512]⟩ : Shape).Idx, f (bandIdx t y) := by
  rw [sum_idx2 f]
  rw [← Equiv.sum_comp bandEquiv (fun r => ∑ l : Fin 512, f (ix2 r l)), Fintype.sum_prod_type]
  refine Finset.sum_congr rfl fun t _ => ?_
  rw [sum_idx2 (fun y => f (bandIdx t y))]
  rfl

/-! ## The same elements under another shape -/

/-- A sum over the positions of one shape, of a function of the elements re-listed under another shape in row-major
    order, is the sum over the original positions: re-listing is a bijection of positions. -/
theorem sum_shapeCast {M : Type*} [AddCommMonoid M] {α : Type} {s t : Shape} (x : s.Idx → α) (h : s.ShapeCasts t)
    (g : α → M) : ∑ j : t.Idx, g (shapeCast t x h j) = ∑ i : s.Idx, g (x i) :=
  Equiv.sum_comp (Shape.reshapeEquiv h) fun i => g (x i)

end Cert.MaskedSum

end
-- ==== Proof.Payload.lean ====
/-
  The body's two accumulator updates, read as numbers.

  With exact arithmetic the value the body stores in the running total is the total it found plus the sum, over the
  2048 × 512 positions of the block, of `(a − b)² · w`; the value it stores in the running count is the count it found
  plus the sum of the indicators `w`. The lane reduction reduces a 1 × 2048 × 512 re-listing of the block over its two
  long axes into a single number, which is the sum over every position; re-listing does not change a sum.
-/
import proofs.«163819_j3710851744149_2_alg».proof.Proof.Gen.KernelIdeal.Skeleton
import proofs.«163819_j3710851744149_2_alg».proof.Proof.MaskedSum
import Idealize.ShloMosaic.PureOps.Ideal.Laws
import Idealize.ShloMosaic.Lib.Pipeline.Value

noncomputable section

open scoped BigOperators

namespace Cert.KernelIdeal.Payload

open Idealize.ShloMosaic Idealize.ShloMosaic.ValueIdx Cert.KernelIdeal Cert.KernelIdeal.Gen Cert.MaskedSum

/-- The zero the reset stores is the number 0. -/
theorem reset_total (y : S1x1.Idx) : k0_pay1 (F := Ideal) y = 0 := Ideal.ofBits_zero_f32
theorem reset_count (y : S1x1.Idx) : k0_pay2 (F := Ideal) y = 0 := Ideal.ofBits_zero_f32

/-- The indicator vector of a block, position by position. -/
theorem indicator_apply (x2 : Vec Ideal S2048x512 .i32) (j : S2048x512.Idx) : k0_pay3 (F := Ideal) x2 j = weight (x2 j) := by
  unfold k0_pay3
  show FloatOps.sitofp (F := Ideal) .f32 ((IntOp.cmpi .eq (shapeCast S2048x512 x2 shapeCasts_S2048x512_S2048x512 j) 1#32).setWidth 32) = _
  rw [shapeCast_self]
  exact sitofp_extui_cmpi (x2 j)

/-- The lane reduction of a block re-listed as 1 × 2048 × 512, taken out as one number: the sum over the block. -/
theorem lane_total (v : FVec Ideal S2048x512 .f32) :
    extractAt ![0, 0, 0] (shapeCast S1x1x1 (multiReduction .add [1, 2] S1 (shapeCast S1x2048x512 v shapeCasts_S2048x512_S1x2048x512)
      0x00000000#32 reduces_S1x2048x512_S1 (.inl rfl) rfl) shapeCasts_S1_S1x1x1) inpos_S1x1x1_p0_0_0
      = ∑ j : S2048x512.Idx, v j := by
  unfold extractAt shapeCast
  refine (Ideal.multiReduction_add_total _ _ reduces_S1x2048x512_S1 (fun b => by fin_cases b; rfl) (.inl rfl) rfl _).trans ?_
  exact sum_shapeCast v shapeCasts_S2048x512_S1x2048x512 id

/-- The running total after the body: what it found plus the block's masked squared error. -/
theorem total_step (x0 x1 : Vec Ideal S2048x512 .f32) (x2 : Vec Ideal S2048x512 .i32) (acc : Vec Ideal S1x1 .f32) (y : S1x1.Idx) :
    k0_pay4 (F := Ideal) x0 x1 x2 acc y = acc y + ∑ j : S2048x512.Idx, term (x0 j) (x1 j) (x2 j) := by
  unfold k0_pay4
  dsimp only
  rw [addf_apply, shapeCast_self, broadcast_apply, lane_total]
  refine congrArg (acc y + ·) (Finset.sum_congr rfl fun j _ => ?_)
  rw [mulf_apply, mulf_apply, subf_apply, shapeCast_self, shapeCast_self, indicator_apply]
  rfl

/-- The running count after the body: what it found plus the number of selected positions of the block. -/
theorem count_step (x2 : Vec Ideal S2048x512 .i32) (cnt : Vec Ideal S1x1 .f32) (y : S1x1.Idx) :
    k0_pay5 (F := Ideal) x2 cnt y = cnt y + ∑ j : S2048x512.Idx, weight (x2 j) := by
  unfold k0_pay5
  dsimp only
  rw [addf_apply, shapeCast_self, broadcast_apply, lane_total]
  exact congrArg (cnt y + ·) (Finset.sum_congr rfl fun j _ => indicator_apply x2 j)

end Cert.KernelIdeal.Payload

end
-- ==== Proof.Running.lean ====
/-
  The accumulators after every grid point.

  Point `t` of the grid works on band `t`: rows 2048·t … 2048·t + 2047 of the three 49152 × 512 matrices. After point
  `n` the running total is the sum, over the bands 0 … n, of each band's masked squared error, and the running count is
  the sum of each band's number of selected positions: at point 0 the accumulators are reset and receive band 0, at a
  later point they receive one more band. By induction on the point.
-/
import proofs.«163819_j3710851744149_2_alg».proof.Proof.Gen.KernelIdeal.Frame
import proofs.«163819_j3710851744149_2_alg».proof.Proof.Pieces
import proofs.«163819_j3710851744149_2_alg».proof.Proof.Payload

noncomputable section

open scoped BigOperators

namespace Cert.KernelIdeal.Running

open Idealize.ShloMosaic Idealize.ShloMosaic.TcCoe Idealize.SL.Sem
open Cert.KernelIdeal Cert.KernelIdeal.Gen Cert.MaskedSum

variable (m : (ℓ : Loc nD τ sig) → Buf (Elt Ideal) ℓ)

/-- Band `t`'s masked squared error: the sum of the terms over the three blocks the windows hold at point `t`. -/
def bandTotal (c : Dev nD) (t : Fin cfg0.N) : EReal :=
  ∑ j : S2048x512.Idx, term ((iblk m c 0 t : Vec Ideal S2048x512 .f32) j) ((iblk m c 1 t : Vec Ideal S2048x512 .f32) j)
    ((iblk m c 2 t : Vec Ideal S2048x512 .i32) j)

/-- Band `t`'s number of selected positions. -/
def bandCount (c : Dev nD) (t : Fin cfg0.N) : EReal :=
  ∑ j : S2048x512.Idx, weight ((iblk m c 2 t : Vec Ideal S2048x512 .i32) j)

/-- The two as functions of a natural number (zero past the grid), to sum over a range. -/
def bandTotalN (c : Dev nD) (k : ℕ) : EReal := if h : k < cfg0.N then bandTotal m c ⟨k, h⟩ else 0
def bandCountN (c : Dev nD) (k : ℕ) : EReal := if h : k < cfg0.N then bandCount m c ⟨k, h⟩ else 0

/-- At the first point: reset, then band 0. -/
theorem first_point (c : Dev nD) (t : Fin cfg0.N) (h0 : t.val % 24 = 0) (y : S1x1.Idx) :
    (outsAt0 m c t.val t.isLt).1 y = bandTotal m c t ∧ (outsAt0 m c t.val t.isLt).2 y = bandCount m c t := by
  rw [outsAt0_A m c t h0]
  dsimp only
  constructor
  · refine (congrFun (Pieces.first_total (F := Ideal) c (grid0.coords t) (ms0_0 t) (hs0_0 t) (ms0_1 t) (hs0_1 t) (ms0_2 t) (hs0_2 t) (ms0_3 t) (hs0_3 t) (ms0_4 t) (hs0_4 t) ((hcond0_0 t).mpr h0)
      (iblk m c 0 t) (iblk m c 1 t) (iblk m c 2 t)) y).trans ?_
    refine (Payload.total_step (iblk m c 0 t) (iblk m c 1 t) (iblk m c 2 t) (k0_pay1 (F := Ideal)) y).trans ?_
    rw [Payload.reset_total, zero_add]
    rfl
  · refine (congrFun (Pieces.first_count (F := Ideal) c (grid0.coords t) (ms0_0 t) (hs0_0 t) (ms0_1 t) (hs0_1 t) (ms0_2 t) (hs0_2 t) (ms0_3 t) (hs0_3 t) (ms0_4 t) (hs0_4 t) ((hcond0_0 t).mpr h0)
      (iblk m c 0 t) (iblk m c 1 t) (iblk m c 2 t)) y).trans ?_
    refine (Payload.count_step (iblk m c 2 t) (k0_pay2 (F := Ideal)) y).trans ?_
    rw [Payload.reset_count, zero_add]
    rfl

/-- At a later point: what the point before left, plus band `t`. -/
theorem later_point (c : Dev nD) (t : Fin cfg0.N) (h0 : ¬t.val % 24 = 0) (y : S1x1.Idx) :
    (outsAt0 m c t.val t.isLt).1 y
        = (outsAt0 m c (t.val - 1) (Nat.lt_of_le_of_lt (Nat.sub_le _ _) t.isLt)).1 y + bandTotal m c t
    ∧ (outsAt0 m c t.val t.isLt).2 y
        = (outsAt0 m c (t.val - 1) (Nat.lt_of_le_of_lt (Nat.sub_le _ _) t.isLt)).2 y + bandCount m c t := by
  rw [outsAt0_B m c t h0]
  dsimp only
  constructor
  · refine (congrFun (Pieces.later_total (F := Ideal) c (grid0.coords t) (ms0_0 t) (hs0_0 t) (ms0_1 t) (hs0_1 t) (ms0_2 t) (hs0_2 t) (ms0_3 t) (hs0_3 t) (ms0_4 t) (hs0_4 t) (fun h => h0 ((hcond0_0 t).mp h))
      (iblk m c 0 t) (iblk m c 1 t) (iblk m c 2 t)
      (outsAt0 m c (t.val - 1) (Nat.lt_of_le_of_lt (Nat.sub_le _ _) t.isLt)).1
      (outsAt0 m c (t.val - 1) (Nat.lt_of_le_of_lt (Nat.sub_le _ _) t.isLt)).2) y).trans ?_
    exact Payload.total_step (iblk m c 0 t) (iblk m c 1 t) (iblk m c 2 t) _ y
  · refine (congrFun (Pieces.later_count (F := Ideal) c (grid0.coords t) (ms0_0 t) (hs0_0 t) (ms0_1 t) (hs0_1 t) (ms0_2 t) (hs0_2 t) (ms0_3 t) (hs0_3 t) (ms0_4 t) (hs0_4 t) (fun h => h0 ((hcond0_0 t).mp h))
      (iblk m c 0 t) (iblk m c 1 t) (iblk m c 2 t)
      (outsAt0 m c (t.val - 1) (Nat.lt_of_le_of_lt (Nat.sub_le _ _) t.isLt)).1
      (outsAt0 m c (t.val - 1) (Nat.lt_of_le_of_lt (Nat.sub_le _ _) t.isLt)).2) y).trans ?_
    exact Payload.count_step (iblk m c 2 t) _ y

/-- After point `n` the accumulators hold the sums over the bands 0 … n. -/
theorem after_point (c : Dev nD) : ∀ (n : ℕ) (h : n < cfg0.N) (y : S1x1.Idx),
    (outsAt0 m c n h).1 y = ∑ k ∈ Finset.range (n + 1), bandTotalN m c k
    ∧ (outsAt0 m c n h).2 y = ∑ k ∈ Finset.range (n + 1), bandCountN m c k
  | 0, h, y => by
    have e := first_point m c ⟨0, h⟩ rfl y
    rw [Finset.sum_range_one, Finset.sum_range_one]
    unfold bandTotalN bandCountN
    rw [dif_pos h, dif_pos h]
    exact e
  | n + 1, h, y => by
    have hN : cfg0.N = 24 := N_0
    have hB : ¬(⟨n + 1, h⟩ : Fin cfg0.N).val % 24 = 0 := by dsimp only; omega
    have e := later_point m c ⟨n + 1, h⟩ hB y
    have ih := after_point c n (Nat.lt_of_succ_lt h) y
    rw [Finset.sum_range_succ _ (n + 1), Finset.sum_range_succ _ (n + 1), ← ih.1, ← ih.2]
    unfold bandTotalN bandCountN
    rw [dif_pos h, dif_pos h]
    exact e

/-- The sums over all 24 bands, as sums over the grid's points. -/
theorem sum_all_total (c : Dev nD) : ∑ k ∈ Finset.range 24, bandTotalN m c k = ∑ t : Fin 24, bandTotal m c (t.cast N_0.symm) := by
  rw [← Fin.sum_univ_eq_sum_range (fun k => bandTotalN m c k) 24]
  refine Finset.sum_congr rfl fun t _ => ?_
  unfold bandTotalN
  rw [dif_pos (lt_of_lt_of_eq t.isLt N_0.symm)]
  rfl
theorem sum_all_count (c : Dev nD) : ∑ k ∈ Finset.range 24, bandCountN m c k = ∑ t : Fin 24, bandCount m c (t.cast N_0.symm) := by
  rw [← Fin.sum_univ_eq_sum_range (fun k => bandCountN m c k) 24]
  refine Finset.sum_congr rfl fun t _ => ?_
  unfold bandCountN
  rw [dif_pos (lt_of_lt_of_eq t.isLt N_0.symm)]
  rfl

end Cert.KernelIdeal.Running

end
-- ==== Proof.Region.lean ====
/-
  The region's two results and what the program returns.

  The two one-element result arrays are written back once, after the last grid point, so they end holding the
  accumulators after point 23: the sum over all 24 bands of the masked squared error, and of the number of selected
  positions. The program then re-lists each as a scalar and divides the first by the second.
-/
import proofs.«163819_j3710851744149_2_alg».proof.Proof.Gen.KernelIdeal.Frame
import proofs.«163819_j3710851744149_2_alg».proof.Proof.Running
import Idealize.ShloMosaic.Lib.Pipeline.Value
import Idealize.ShloMosaic.Lib.StableHlo.Run
import Idealize.ShloMosaic.Lib.Tactic

noncomputable section

open scoped BigOperators

namespace Cert.KernelIdeal.Region

open Idealize.ShloMosaic Idealize.ShloMosaic.TcCoe Idealize.SL.Sem
open Idealize.ShloMosaic.Pipeline (Dat)
open Cert.KernelIdeal Cert.KernelIdeal.Gen Cert.KernelIdeal.Running Cert.MaskedSum

variable (m : (ℓ : Loc nD τ sig) → Buf (Elt Ideal) ℓ) (ρ : Dev nD → PrngReg)

/-- The last grid point. -/
def last : Fin cfg0.N := ⟨23, by rw [show cfg0.N = 24 from N_0]; decide⟩

/-- The sums over all 24 bands. -/
def grandTotal (c : Dev nD) : EReal := ∑ k ∈ Finset.range 24, bandTotalN m c k
def grandCount (c : Dev nD) : EReal := ∑ k ∈ Finset.range 24, bandCountN m c k

/-- The result arrays' final contents: their one element is the grand total, the grand count. -/
abbrev totalArr (c : Dev nD) : FVec Ideal S1x1 .f32 := fun _ => grandTotal m c
abbrev countArr (c : Dev nD) : FVec Ideal S1x1 .f32 := fun _ => grandCount m c

/-- The one write-back of the total, at the last point, writes the accumulator after point 23: block (0, 0) of a
    1 × 1 array read at zero offsets is the array. -/
theorem flushed_total (c : Dev nD) (t : Fin cfg0.N) (hf : (cfg0.win 3).flush t = true) :
    (dats m 0 c).flushed 3 t = ((cfg0.win 3).blk t).view.read (Elt Ideal) (totalArr m c) := by
  have hN : cfg0.N = 24 := N_0
  have h23 : t.val = 23 := by have := (flush0_3 t).mp hf; have := t.isLt; omega
  obtain rfl : t = last := Fin.ext h23
  show (cfg0.win 3).cut (grid0.coords last) ((dats m 0 c).after 3 last) = _
  rw [after0_3]
  have e : (outsAt0 m c last.val last.isLt).1 = totalArr m c := funext fun y => (after_point m c 23 last.isLt y).1
  rw [e]
  have hz' : (fun a => win0_3.index last a * main_v3_0.ty.shape.size a) = fun _ => 0 := funext fun a => by fin_cases a <;> decide
  exact (Memref.read_access_unit_zero (Elt Ideal) main_v3_0 hz' (fun a => by rw [congrFun hz' a]; simp) (totalArr m c)).symm

/-- The count's one write-back likewise. -/
theorem flushed_count (c : Dev nD) (t : Fin cfg0.N) (hf : (cfg0.win 4).flush t = true) :
    (dats m 0 c).flushed 4 t = ((cfg0.win 4).blk t).view.read (Elt Ideal) (countArr m c) := by
  have hN : cfg0.N = 24 := N_0
  have h23 : t.val = 23 := by have := (flush0_4 t).mp hf; have := t.isLt; omega
  obtain rfl : t = last := Fin.ext h23
  show (cfg0.win 4).cut (grid0.coords last) ((dats m 0 c).after 4 last) = _
  rw [after0_4]
  have e : (outsAt0 m c last.val last.isLt).2 = countArr m c := funext fun y => (after_point m c 23 last.isLt y).2
  rw [e]
  have hz' : (fun a => win0_4.index last a * main_v3_1.ty.shape.size a) = fun _ => 0 := funext fun a => by fin_cases a <;> decide
  exact (Memref.read_access_unit_zero (Elt Ideal) main_v3_1 hz' (fun a => by rw [congrFun hz' a]; simp) (countArr m c)).symm

/-- The last point's block is the whole 1 × 1 array, so the total's array ends holding the grand total, -/
theorem final_total (c : Dev nD) : (dats m 0 c).arrAt 3 cfg0.N = totalArr m c :=
  (dats m 0 c).arrAt_eq_of_cover 3 (totalArr m c) (flushed_total m c) fun i =>
    ⟨last, (flush0_3 last).mpr rfl, by
      show i ∈ ((View.whole main_v3_0).slice (win0_3.rect last)).set
      rw [View.set_slice_whole, Rect.mem_set_unit]
      intro a
      have h0 : (i 0 : Nat) < 1 := (i 0).isLt
      have h1 : (i 1 : Nat) < 1 := (i 1).isLt
      match a with
      | ⟨0, _⟩ => show win0_3.index last 0 * win0_3.size 0 ≤ (i 0 : Nat) ∧ (i 0 : Nat) < win0_3.index last 0 * win0_3.size 0 + win0_3.xsize (grid0.coords last) 0
                  rw [show win0_3.index last 0 * win0_3.size 0 = 0 from by decide +kernel, show win0_3.xsize (grid0.coords last) 0 = 1 from by decide +kernel]; omega
      | ⟨1, _⟩ => show win0_3.index last 1 * win0_3.size 1 ≤ (i 1 : Nat) ∧ (i 1 : Nat) < win0_3.index last 1 * win0_3.size 1 + win0_3.xsize (grid0.coords last) 1
                  rw [show win0_3.index last 1 * win0_3.size 1 = 0 from by decide +kernel, show win0_3.xsize (grid0.coords last) 1 = 1 from by decide +kernel]; omega⟩

/-- and the count's array the grand count. -/
theorem final_count (c : Dev nD) : (dats m 0 c).arrAt 4 cfg0.N = countArr m c :=
  (dats m 0 c).arrAt_eq_of_cover 4 (countArr m c) (flushed_count m c) fun i =>
    ⟨last, (flush0_4 last).mpr rfl, by
      show i ∈ ((View.whole main_v3_1).slice (win0_4.rect last)).set
      rw [View.set_slice_whole, Rect.mem_set_unit]
      intro a
      have h0 : (i 0 : Nat) < 1 := (i 0).isLt
      have h1 : (i 1 : Nat) < 1 := (i 1).isLt
      match a with
      | ⟨0, _⟩ => show win0_4.index last 0 * win0_4.size 0 ≤ (i 0 : Nat) ∧ (i 0 : Nat) < win0_4.index last 0 * win0_4.size 0 + win0_4.xsize (grid0.coords last) 0
                  rw [show win0_4.index last 0 * win0_4.size 0 = 0 from by decide +kernel, show win0_4.xsize (grid0.coords last) 0 = 1 from by decide +kernel]; omega
      | ⟨1, _⟩ => show win0_4.index last 1 * win0_4.size 1 ≤ (i 1 : Nat) ∧ (i 1 : Nat) < win0_4.index last 1 * win0_4.size 1 + win0_4.xsize (grid0.coords last) 1
                  rw [show win0_4.index last 1 * win0_4.size 1 = 0 from by decide +kernel, show win0_4.xsize (grid0.coords last) 1 = 1 from by decide +kernel]; omega⟩

/-- What the program returns: the two results re-listed as scalars, the first divided by the second. -/
theorem tail_result (c : Dev nD) : Pipeline.afterTail₀ cfgs (dats m) 0 (V0 m) [hostOps1] c main_v6
    = (Host.divf (shapeCast S_ (totalArr m c) shapeCasts_S1x1_S_) (shapeCast S_ (countArr m c) shapeCasts_S1x1_S_) : FVec Ideal S_ .f32) := by
  unfold Pipeline.afterTail₀
  show StableHlo.after (hostOps1 (F := Ideal)) _ (Proc.devRef .tc main_v6) = _
  after_results
  have e3 : Pipeline.withArrays (cfgs 0).spec c (V0 m c) (fun w => (dats m 0 c).arrAt w (cfgs 0).N) (Proc.devRef .tc main_v3_0)
      = totalArr m c := (Pipeline.withArrays_arr spec0 launch0.win.arr_inj c _ _ 3).trans (final_total m c)
  have e4 : Pipeline.withArrays (cfgs 0).spec c (V0 m c) (fun w => (dats m 0 c).arrAt w (cfgs 0).N) (Proc.devRef .tc main_v3_1)
      = countArr m c := (Pipeline.withArrays_arr spec0 launch0.win.arr_inj c _ _ 4).trans (final_count m c)
  rw [e3, e4]
  rfl

/-- The run, read: every weakly fair execution ends with the result at that quotient and the arguments unchanged. -/
theorem run : θ_run defs (onTc (τ := τ) (main (F := Ideal))) ⟨m, fun _ => 0, ρ⟩ fun r => ∀ c : Dev nD,
      r.2.mem ((c.tc : Thread nD τ).loc main_v6)
        = (Host.divf (shapeCast S_ (totalArr m c) shapeCasts_S1x1_S_) (shapeCast S_ (countArr m c) shapeCasts_S1x1_S_) : FVec Ideal S_ .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v6 (Pipeline.mem_restRefs_of main_v6 (by decide) (by decide))).trans (tail_result m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Region

end
-- ==== Proof.Bands.lean ====
/-
  A band of the kernel's windows is a band of rows of the re-listed arguments.

  Before the region the program re-lists each 32 × 3 × 512 × 512 argument as a 49152 × 512 matrix, the same elements in
  row-major order. Window `w`'s block at grid point `t` is rows 2048·t … 2048·t + 2047 of matrix `w`, all 512 columns:
  its block index is `(t, 0)` and a block's coordinate is index × size + the coordinate inside the block.
-/
import proofs.«163819_j3710851744149_2_alg».proof.Proof.Gen.KernelIdeal.Frame
import proofs.«163819_j3710851744149_2_alg».proof.Proof.MaskedSum
import Idealize.ShloMosaic.Lib.Pipeline.Value
import Idealize.ShloMosaic.Lib.StableHlo.Run
import Idealize.ShloMosaic.Lib.Tactic

noncomputable section

namespace Cert.KernelIdeal.Bands

open Idealize.ShloMosaic Idealize.ShloMosaic.TcCoe Idealize.SL.Sem Idealize.ShloMosaic.ValueIdx
open Cert.KernelIdeal Cert.KernelIdeal.Gen Cert.MaskedSum

variable (m : (ℓ : Loc nD τ sig) → Buf (Elt Ideal) ℓ)

/-- The three input windows' block index at point `t` is `(t, 0)`: decided once over the grid. -/
theorem block_index0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem block_index1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)
theorem block_index2 : ∀ t : Fin cfg0.N, win0_2.index t (0 : Fin 2) = t.val ∧ win0_2.index t (1 : Fin 2) = 0 :=
  (by decide +kernel : ∀ t : Fin grid0.N, win0_2.index t (0 : Fin 2) = t.val ∧ win0_2.index t (1 : Fin 2) = 0)

/-- The point as a number below 24. -/
abbrev band (t : Fin cfg0.N) : Fin 24 := t.cast N_0

/-- Window 0's block at point `t`, position `y`, is the first matrix at position `y` of band `t`. -/
theorem block0_apply (c : Dev nD) (t : Fin cfg0.N) (y : S2048x512.Idx) :
    (iblk m c 0 t : Vec Ideal S2048x512 .f32) y = (V m c main_v0 : S49152x512.Idx → EReal) (bandIdx (band t) y) := by
  have hi := block_index0 t
  unfold iblk
  rw [View.read_apply]
  show (V m c main_v0 : S49152x512.Idx → EReal) _ = (V m c main_v0 : S49152x512.Idx → EReal) _
  congr 1
  funext a
  apply Fin.ext
  match a with
  | ⟨0, _⟩ => show win0_0.index t 0 * 2048 + 1 * (y 0).val = 2048 * t.val + (y 0).val; rw [hi.1]; omega
  | ⟨1, _⟩ => show win0_0.index t 1 * 512 + 1 * (y 1).val = (y 1).val; rw [hi.2]; omega

/-- Window 1's block likewise, of the second matrix. -/
theorem block1_apply (c : Dev nD) (t : Fin cfg0.N) (y : S2048x512.Idx) :
    (iblk m c 1 t : Vec Ideal S2048x512 .f32) y = (V m c main_v1 : S49152x512.Idx → EReal) (bandIdx (band t) y) := by
  have hi := block_index1 t
  unfold iblk
  rw [View.read_apply]
  show (V m c main_v1 : S49152x512.Idx → EReal) _ = (V m c main_v1 : S49152x512.Idx → EReal) _
  congr 1
  funext a
  apply Fin.ext
  match a with
  | ⟨0, _⟩ => show win0_1.index t 0 * 2048 + 1 * (y 0).val = 2048 * t.val + (y 0).val; rw [hi.1]; omega
  | ⟨1, _⟩ => show win0_1.index t 1 * 512 + 1 * (y 1).val = (y 1).val; rw [hi.2]; omega

/-- Window 2's block likewise, of the mask matrix. -/
theorem block2_apply (c : Dev nD) (t : Fin cfg0.N) (y : S2048x512.Idx) :
    (iblk m c 2 t : Vec Ideal S2048x512 .i32) y = (V m c main_v2 : S49152x512.Idx → BitVec 32) (bandIdx (band t) y) := by
  have hi := block_index2 t
  unfold iblk
  rw [View.read_apply]
  show (V m c main_v2 : S49152x512.Idx → BitVec 32) _ = (V m c main_v2 : S49152x512.Idx → BitVec 32) _
  congr 1
  funext a
  apply Fin.ext
  match a with
  | ⟨0, _⟩ => show win0_2.index t 0 * 2048 + 1 * (y 0).val = 2048 * t.val + (y 0).val; rw [hi.1]; omega
  | ⟨1, _⟩ => show win0_2.index t 1 * 512 + 1 * (y 1).val = (y 1).val; rw [hi.2]; omega

/-- The three matrices the region finds are the arguments re-listed. -/
theorem matrix0 (c : Dev nD) : (V m c main_v0 : S49152x512.Idx → EReal)
    = shapeCast S49152x512 (m ((c : Thread nD τ).loc main_arg0)) shapeCasts_S32x3x512x512_S49152x512 := by
  show StableHlo.after (hostOps0 (F := Ideal)) (fun b => m (c, b)) (Proc.devRef .tc main_v0) = _
  after_results
  rfl
theorem matrix1 (c : Dev nD) : (V m c main_v1 : S49152x512.Idx → EReal)
    = shapeCast S49152x512 (m ((c : Thread nD τ).loc main_arg1)) shapeCasts_S32x3x512x512_S49152x512 := by
  show StableHlo.after (hostOps0 (F := Ideal)) (fun b => m (c, b)) (Proc.devRef .tc main_v1) = _
  after_results
  rfl
theorem matrix2 (c : Dev nD) : (V m c main_v2 : S49152x512.Idx → BitVec 32)
    = shapeCast S49152x512 (m ((c : Thread nD τ).loc main_arg2)) shapeCasts_S32x3x512x512_S49152x512 := by
  show StableHlo.after (hostOps0 (F := Ideal)) (fun b => m (c, b)) (Proc.devRef .tc main_v2) = _
  after_results
  rfl

end Cert.KernelIdeal.Bands

end
-- ==== Proof.Whole.lean ====
/-
  The kernel's grand total is the sum over the original positions.

  The 24 bands' sums add up to the sum over the whole 49152 × 512 matrix, and the matrix is the 32 × 3 × 512 × 512
  argument re-listed, so the grand total is the sum of the terms over the argument's own positions; the grand count
  likewise. Hence the program returns the masked mean squared error of its arguments.
-/
import proofs.«163819_j3710851744149_2_alg».proof.Proof.Region
import proofs.«163819_j3710851744149_2_alg».proof.Proof.Bands

noncomputable section

open scoped BigOperators

namespace Cert.KernelIdeal.Whole

open Idealize.ShloMosaic Idealize.ShloMosaic.TcCoe Idealize.SL.Sem
open Cert.KernelIdeal Cert.KernelIdeal.Gen Cert.KernelIdeal.Running Cert.KernelIdeal.Region Cert.KernelIdeal.Bands Cert.MaskedSum

variable (m : (ℓ : Loc nD τ sig) → Buf (Elt Ideal) ℓ)

/-- A point of the grid, read as a number below 24 and back, is itself. -/
theorem band_cast (t : Fin 24) : band (t.cast N_0.symm) = t := Fin.ext rfl

/-- The grand total is the sum of the terms over the positions of the arguments. -/
theorem grandTotal_eq (c : Dev nD) : grandTotal m c
    = ∑ i : S32x3x512x512.Idx, term (m ((c : Thread nD τ).loc main_arg0) i) (m ((c : Thread nD τ).loc main_arg1) i)
        (m ((c : Thread nD τ).loc main_arg2) i) := by
  unfold grandTotal
  rw [sum_all_total]
  have hb : ∀ t : Fin 24, bandTotal m c (t.cast N_0.symm)
      = ∑ y : S2048x512.Idx, (fun j : S49152x512.Idx => term ((V m c main_v0 : S49152x512.Idx → EReal) j)
          ((V m c main_v1 : S49152x512.Idx → EReal) j) ((V m c main_v2 : S49152x512.Idx → BitVec 32) j)) (bandIdx t y) := fun t => by
    unfold bandTotal
    refine Finset.sum_congr rfl fun y _ => ?_
    rw [block0_apply, block1_apply, block2_apply, band_cast]
  refine (Finset.sum_congr rfl fun t _ => hb t).trans ?_
  refine (sum_bands (fun j : S49152x512.Idx => term ((V m c main_v0 : S49152x512.Idx → EReal) j)
    ((V m c main_v1 : S49152x512.Idx → EReal) j) ((V m c main_v2 : S49152x512.Idx → BitVec 32) j))).symm.trans ?_
  rw [matrix0, matrix1, matrix2]
  exact Equiv.sum_comp (Shape.reshapeEquiv shapeCasts_S32x3x512x512_S49152x512) fun i =>
    term (m ((c : Thread nD τ).loc main_arg0) i) (m ((c : Thread nD τ).loc main_arg1) i) (m ((c : Thread nD τ).loc main_arg2) i)

/-- The grand count is the sum of the indicators over the positions of the mask. -/
theorem grandCount_eq (c : Dev nD) : grandCount m c
    = ∑ i : S32x3x512x512.Idx, weight (m ((c : Thread nD τ).loc main_arg2) i) := by
  unfold grandCount
  rw [sum_all_count]
  have hb : ∀ t : Fin 24, bandCount m c (t.cast N_0.symm)
      = ∑ y : S2048x512.Idx, (fun j : S49152x512.Idx => weight ((V m c main_v2 : S49152x512.Idx → BitVec 32) j)) (bandIdx t y) := fun t => by
    unfold bandCount
    refine Finset.sum_congr rfl fun y _ => ?_
    rw [block2_apply, band_cast]
  refine (Finset.sum_congr rfl fun t _ => hb t).trans ?_
  refine (sum_bands (fun j : S49152x512.Idx => weight ((V m c main_v2 : S49152x512.Idx → BitVec 32) j))).symm.trans ?_
  rw [matrix2]
  exact Equiv.sum_comp (Shape.reshapeEquiv shapeCasts_S32x3x512x512_S49152x512) fun i =>
    weight (m ((c : Thread nD τ).loc main_arg2) i)

/-- Two one-element arrays holding the two sums, re-listed as scalars and divided, are the masked mean squared error:
    stated over any two numbers and any three arrays. -/
theorem quotient_eq (T C : EReal) (a b : S32x3x512x512.Idx → EReal) (k : S32x3x512x512.Idx → BitVec 32)
    (hT : T = ∑ i, term (a i) (b i) (k i)) (hC : C = ∑ i, weight (k i)) :
    (Host.divf (shapeCast S_ (fun _ => T : FVec Ideal S1x1 .f32) shapeCasts_S1x1_S_)
      (shapeCast S_ (fun _ => C : FVec Ideal S1x1 .f32) shapeCasts_S1x1_S_) : FVec Ideal S_ .f32) = result a b k := by
  have e : (Host.divf (shapeCast S_ (fun _ => T : FVec Ideal S1x1 .f32) shapeCasts_S1x1_S_)
      (shapeCast S_ (fun _ => C : FVec Ideal S1x1 .f32) shapeCasts_S1x1_S_) : FVec Ideal S_ .f32) = fun _ => Ideal.div T C := rfl
  rw [e, hT, hC]
  unfold result
  rfl

/-- What the program returns is the masked mean squared error of its arguments. -/
theorem returned_eq (c : Dev nD) :
    (Host.divf (shapeCast S_ (totalArr m c) shapeCasts_S1x1_S_) (shapeCast S_ (countArr m c) shapeCasts_S1x1_S_) : FVec Ideal S_ .f32)
      = result (s := S32x3x512x512) (m ((c : Thread nD τ).loc main_arg0)) (m ((c : Thread nD τ).loc main_arg1))
          (m ((c : Thread nD τ).loc main_arg2)) :=
  quotient_eq (grandTotal m c) (grandCount m c) (m ((c : Thread nD τ).loc main_arg0)) (m ((c : Thread nD τ).loc main_arg1))
    (m ((c : Thread nD τ).loc main_arg2)) (grandTotal_eq m c) (grandCount_eq m c)

end Cert.KernelIdeal.Whole

end
-- ==== Proof.RefWhole.lean ====
/-
  The reference returns the masked mean squared error.

  Its result is the quotient of two sums over all positions, each started from zero: the sum of `(a − b)·(a − b)` times the
  indicator of "mask = 1" read as an unsigned number, and the sum of the indicators.
-/
import proofs.«163819_j3710851744149_2_alg».proof.Proof.Gen.ReferenceIdeal.Read
import proofs.«163819_j3710851744149_2_alg».proof.Proof.MaskedSum

noncomputable section

open scoped BigOperators

namespace Cert.ReferenceIdeal.Whole

open Idealize.ShloMosaic Cert.ReferenceIdeal Cert.ReferenceIdeal.Read Cert.MaskedSum

/-- The constant the mask is compared with is 1 at every position. -/
theorem ones_apply (j : S32x3x512x512.Idx) : val_main_v2 (F := Ideal) j = 1#32 := (val_main_v2_apply j).trans rfl

/-- The reference's product at a position is one term, -/
theorem product_apply (x0 x1 : S32x3x512x512.Idx → EReal) (x2 : S32x3x512x512.Idx → BitVec 32) (j : S32x3x512x512.Idx) :
    val_main_v5 (F := Ideal) x0 x1 x2 j = term (x0 j) (x1 j) (x2 j) := by
  rw [val_main_v5_apply, val_main_v1_apply, val_main_v0_apply, val_main_v4_apply, val_main_v3_apply, ones_apply]
  rfl

/-- and its converted comparison the indicator. -/
theorem indicator_apply (x2 : S32x3x512x512.Idx → BitVec 32) (j : S32x3x512x512.Idx) :
    val_main_v4 (F := Ideal) x2 j = weight (x2 j) := by
  rw [val_main_v4_apply, val_main_v3_apply, ones_apply]
  rfl

/-- So the reference's result is the masked mean squared error of its arguments. -/
theorem returned_eq (x0 x1 : S32x3x512x512.Idx → EReal) (x2 : S32x3x512x512.Idx → BitVec 32) :
    val_main_v8 (F := Ideal) x0 x1 x2 = result x0 x1 x2 := by
  funext i
  rw [val_main_v8_apply, val_main_v6_apply, val_main_v7_apply, val_main_cst_apply, val_main_cst_0_apply,
    Finset.sum_congr rfl fun j _ => product_apply x0 x1 x2 j, Finset.sum_congr rfl fun j _ => indicator_apply x2 j]
  show Ideal.div (Ideal.ofBits .f32 0x00000000#32 + _) (Ideal.ofBits .f32 0x00000000#32 + _) = _
  rw [Ideal.ofBits_zero_f32, zero_add, zero_add]
  rfl

end Cert.ReferenceIdeal.Whole

end
-- ==== Proof.lean ====
/-
  The masked mean squared error kernel against its reference.

  The kernel re-lists its three 32 × 3 × 512 × 512 arguments as 49152 × 512 matrices and walks them in 24 bands of 2048
  rows; at each band it adds the band's sum of `(input − target)² · [mask = 1]` to a running total and the band's number
  of selected positions to a running count, both reset at the first band; the program returns total / count. The
  reference takes the two sums over all positions at once and divides. With exact arithmetic the two results are the
  same extended real: a sum taken band by band, or over a re-listing of its positions, is the same sum (addition of
  extended reals is commutative and associative, infinities included, so the finiteness of the inputs is never used),
  the kernel's indicator (compare, widen to 32 bits, convert signed) and the reference's (compare, convert unsigned)
  are both 0 or 1, and both programs divide with the same division. The idealization rewrote no operation of the
  kernel, so that conjunct is trivial. The frames of the two kernel programs are the generated ones; the reference's
  frame is its generated run with the result dropped.
-/
import proofs.«163819_j3710851744149_2_alg».proof.Defs
import proofs.«163819_j3710851744149_2_alg».proof.Proof.Gen.Kernel
import proofs.«163819_j3710851744149_2_alg».proof.Proof.Gen.Kernel.Skeleton
import proofs.«163819_j3710851744149_2_alg».proof.Proof.Gen.Kernel.Launch
import proofs.«163819_j3710851744149_2_alg».proof.Proof.Gen.Kernel.Points
import proofs.«163819_j3710851744149_2_alg».proof.Proof.Gen.Kernel.Frame
import proofs.«163819_j3710851744149_2_alg».proof.Proof.Gen.KernelIdeal
import proofs.«163819_j3710851744149_2_alg».proof.Proof.Gen.KernelIdeal.Skeleton
import proofs.«163819_j3710851744149_2_alg».proof.Proof.Gen.KernelIdeal.Launch
import proofs.«163819_j3710851744149_2_alg».proof.Proof.Gen.KernelIdeal.Points
import proofs.«163819_j3710851744149_2_alg».proof.Proof.Gen.KernelIdeal.Frame
import proofs.«163819_j3710851744149_2_alg».proof.Proof.Gen.ReferenceIdeal
import proofs.«163819_j3710851744149_2_alg».proof.Proof.Gen.Pre_finite_inputs
import proofs.«163819_j3710851744149_2_alg».proof.Proof.Gen.ReferenceIdeal.Run
import proofs.«163819_j3710851744149_2_alg».proof.Proof.Gen.ReferenceIdeal.Read
import proofs.«163819_j3710851744149_2_alg».proof.Proof.Whole
import proofs.«163819_j3710851744149_2_alg».proof.Proof.RefWhole
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference_ideal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with their result at the masked mean squared error of the arguments they agree on. -/
theorem algebraic : Cert.algebraic_KernelIdeal_ReferenceIdeal := by
  intro m ρ m' ρ' _ hagree
  refine ⟨fun c => Cert.MaskedSum.result (s := Cert.KernelIdeal.S32x3x512x512)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · exact (θ_run Cert.KernelIdeal.defs _ _).mono
      (fun _ h c => ⟨(h c).1.trans (Cert.KernelIdeal.Whole.returned_eq m c), (h c).2⟩)
      (Cert.KernelIdeal.Region.run m ρ)
  · refine (θ_run Cert.ReferenceIdeal.defs _ _).mono (fun _ h c => ⟨?_, (h c).2⟩)
      (Cert.ReferenceIdeal.Value.run (F := Ideal) m' ρ')
    rw [(h c).1, Cert.ReferenceIdeal.Read.val_main_v8_eq, Cert.ReferenceIdeal.Whole.returned_eq,
      (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
